-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x224x224 : Shape := ⟨4, ![4, 384, 224, 224]⟩
abbrev S4x384x128 : Shape := ⟨3, ![4, 384, 128]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel
  bcast_S_S4x384x128 : S_.BroadcastsInDim S4x384x128 (![] : Fin 0 → Fin S4x384x128.rank)
  reducesTo_S4x384x128_S_d0_1_2 : S4x384x128.ReducesTo [0, 1, 2] S_

variable [Facts]

def fn {F : FTy → Type} [FloatOps F] (main_arg0 : FVec F S4x384x224x224 .f32) (main_arg1 : FVec F S4x384x128 .f32) : IVec S_ 1 :=
  let main_v0 : FVec F S4x384x224x224 .f32 := Host.absf main_arg0
  let main_cst : FVec F S_ .f32 := constant S_ .f32 0x7F800000#32
  let main_v1 : FVec F S4x384x224x224 .f32 := broadcastInDim S4x384x224x224 ![] bcast_S_S4x384x224x224 main_cst
  let main_v2 : IVec S4x384x224x224 1 := cmpf .olt main_v0 main_v1
  let main_c : IVec S_ 1 := constantI S_ 1 1#1
  let main_v3 : IVec S_ 1 := (fun x v => Host.reduce IntOp.andi x v reducesTo_S4x384x224x224_S_d0_1_2_3 h_S_) main_v2 main_c
  let main_v4 : FVec F S4x384x128 .f32 := Host.absf main_arg1
  let main_cst_0 : FVec F S_ .f32 := constant S_ .f32 0x7F800000#32
  let main_v5 : FVec F S4x384x128 .f32 := broadcastInDim S4x384x128 ![] bcast_S_S4x384x128 main_cst_0
  let main_v6 : IVec S4x384x128 1 := cmpf .olt main_v4 main_v5
  let main_c_1 : IVec S_ 1 := constantI S_ 1 1#1
  let main_v7 : IVec S_ 1 := (fun x v => Host.reduce IntOp.andi x v reducesTo_S4x384x128_S_d0_1_2 h_S_) main_v6 main_c_1
  let main_v8 : IVec S_ 1 := andi main_v3 main_v7
  main_v8
-- ==== Kernel.lean ====
abbrev S4x384x224x224 : Shape := ⟨4, ![4, 384, 224, 224]⟩
abbrev S4x384x128 : Shape := ⟨3, ![4, 384, 128]⟩
abbrev S4x384x50176 : Shape := ⟨3, ![4, 384, 50176]⟩
abbrev S4x50176x384 : Shape := ⟨3, ![4, 50176, 384]⟩
abbrev S4x50176x128 : Shape := ⟨3, ![4, 50176, 128]⟩
abbrev S1x7168x384 : Shape := ⟨3, ![1, 7168, 384]⟩
abbrev S1x384x128 : Shape := ⟨3, ![1, 384, 128]⟩
abbrev S1x7168x128 : Shape := ⟨3, ![1, 7168, 128]⟩
abbrev S7168x384 : Shape := ⟨2, ![7168, 384]⟩
abbrev S384x128 : Shape := ⟨2, ![384, 128]⟩
abbrev S7168x128 : Shape := ⟨2, ![7168, 128]⟩

abbrev nBuf : Space → Nat
  | .hbm => 5
  | .vmem => 6
  | .smem => 0
  | _ => 0

abbrev bufTy : (tb : Table) → Fin (tcTables nBuf tb) → BufTy
  | .hbm, ⟨0, _⟩ => ⟨S4x384x224x224, .f32⟩
  | .hbm, ⟨1, _⟩ => ⟨S4x384x128, .f32⟩
  | .hbm, ⟨2, _⟩ => ⟨S4x384x50176, .f32⟩
  | .hbm, ⟨3, _⟩ => ⟨S4x50176x384, .f32⟩
  | .hbm, ⟨4, _⟩ => ⟨S4x50176x128, .f32⟩
  | .local _ .vmem, ⟨0, _⟩ => ⟨S1x7168x384, .f32⟩
  | .local _ .vmem, ⟨1, _⟩ => ⟨S1x7168x384, .f32⟩
  | .local _ .vmem, ⟨2, _⟩ => ⟨S1x384x128, .f32⟩
  | .local _ .vmem, ⟨3, _⟩ => ⟨S1x384x128, .f32⟩
  | .local _ .vmem, ⟨4, _⟩ => ⟨S1x7168x128, .f32⟩
  | .local _ .vmem, ⟨5, _⟩ => ⟨S1x7168x128, .f32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x7168x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x7168x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x384x224x224_S4x384x50176 : S4x384x224x224.ShapeCasts S4x384x50176
  transposes_S4x384x50176_S4x50176x384_0_2_1 : S4x384x50176.Transposes [0, 2, 1] S4x50176x384
  inb_S1x7168x384_S1x7168x384_0_0_0 : ∀ a, (![0, 0, 0] : Fin 3 → Nat) a + S1x7168x384.size a ≤ S1x7168x384.size a
  h_S1x7168x384 : 0 < S1x7168x384.numel
  shapeCasts_S1x7168x384_S7168x384 : S1x7168x384.ShapeCasts S7168x384
  inb_S1x384x128_S1x384x128_0_0_0 : ∀ a, (![0, 0, 0] : Fin 3 → Nat) a + S1x384x128.size a ≤ S1x384x128.size a
  h_S1x384x128 : 0 < S1x384x128.numel
  shapeCasts_S1x384x128_S384x128 : S1x384x128.ShapeCasts S384x128
  inb_S1x7168x128_S1x7168x128_0_0_0 : ∀ a, (![0, 0, 0] : Fin 3 → Nat) a + S1x7168x128.size a ≤ S1x7168x128.size a
  h_S1x7168x128 : 0 < S1x7168x128.numel
  shapeCasts_S1x7168x128_S7168x128 : S1x7168x128.ShapeCasts S7168x128
  shapeCasts_S7168x128_S1x7168x128 : S7168x128.ShapeCasts S1x7168x128
  dot_S7168x384_S384x128_S7168x128_1_0_0_1_n_n_wf : DotDims.WF S7168x384 S384x128 S7168x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x7168x384.size a ≤ S4x50176x384.size a
  hwx0_0 : ∀ i : grid0.Coords, EltTy.bits .f32 = 32 ∨ (Rect.block (s := S4x50176x384) S1x7168x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x384x128.size a ≤ S4x384x128.size a
  hwx0_1 : ∀ i : grid0.Coords, EltTy.bits .f32 = 32 ∨ (Rect.block (s := S4x384x128) S1x384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x7168x128.size a ≤ S4x50176x128.size a
  hwx0_2 : ∀ i : grid0.Coords, EltTy.bits .f32 = 32 ∨ (Rect.block (s := S4x50176x128) S1x7168x128.size (cc0_transform_2 i) (hinb0_2 i)).WholeWords (EltTy.packing .f32)

variable [Facts₀]

def dot_S7168x384_S384x128_S7168x128_1_0_0_1_n_n : DotDims S7168x384 S384x128 S7168x128 where
  lhsContracting := [1]
  rhsContracting := [0]
  lhsNonContracting := [0]
  rhsNonContracting := [1]
  lhsBatch := []
  rhsBatch := []
  wf := dot_S7168x384_S384x128_S7168x128_1_0_0_1_n_n_wf

abbrev win0_0 : Pipeline.Window sig grid0 :=
  Pipeline.Window.ofSpec (Memref.whole main_v1) S1x7168x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x7168x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x384x224x224 : Shape := ⟨4, ![4, 384, 224, 224]⟩
abbrev S4x384x128 : Shape := ⟨3, ![4, 384, 128]⟩
abbrev S4x384x50176 : Shape := ⟨3, ![4, 384, 50176]⟩
abbrev S4x50176x384 : Shape := ⟨3, ![4, 50176, 384]⟩
abbrev S4x50176x128 : Shape := ⟨3, ![4, 50176, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x384x224x224, .f32⟩
  | .hbm, ⟨1, _⟩ => ⟨S4x384x128, .f32⟩
  | .hbm, ⟨2, _⟩ => ⟨S4x384x50176, .f32⟩
  | .hbm, ⟨3, _⟩ => ⟨S4x50176x384, .f32⟩
  | .hbm, ⟨4, _⟩ => ⟨S4x50176x128, .f32⟩
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x384x224x224_S4x384x50176 : S4x384x224x224.ShapeCasts S4x384x50176
  transposes_S4x384x50176_S4x50176x384_0_2_1 : S4x384x50176.Transposes [0, 2, 1] S4x50176x384
  dot_S4x50176x384_S4x384x128_S4x50176x128_2_1_1_2_0_0_wf : DotDims.WF S4x50176x384 S4x384x128 S4x50176x128 [2] [1] [1] [2] [0] [0]

variable [Facts₀]

def dot_S4x50176x384_S4x384x128_S4x50176x128_2_1_1_2_0_0 : DotDims S4x50176x384 S4x384x128 S4x50176x128 where
  lhsContracting := [2]
  rhsContracting := [1]
  lhsNonContracting := [1]
  rhsNonContracting := [2]
  lhsBatch := [0]
  rhsBatch := [0]
  wf := dot_S4x50176x384_S4x384x128_S4x50176x128_2_1_1_2_0_0_wf

class Facts : Prop extends Facts₀ where

variable [Facts]
-- ==== Proof.Projection.lean ====
/-
  The mathematics of the certificate, free of any program.

  Each batch element `n` carries a matrix of tokens `xt[n, p, k]` (one row per pixel `p`, one
  column per channel `k`) and a projection matrix `rm[n, k, j]`. The hash code of pixel `p` is
  the row `p` of the matrix product:

      proj xt rm [n, p, j] = ∑ k, xt[n, p, k] * rm[n, k, j]        (k over the 384 channels)

  read on the extended reals. The sum is a finite sum in a commutative monoid and the summands are
  plain products, so no finiteness of the inputs is needed for anything said here: both programs
  compute this very sum, summand by summand, and differ only in how the pixels are tiled.
-/
import Idealize.ShloMosaic.PureOps.Ideal
import Idealize.ShloMosaic.Lib.ValueIdx

noncomputable section

open scoped BigOperators

namespace Cert.Projection

open Idealize.ShloMosaic Idealize.ShloMosaic.ValueIdx

/-- The batched matrix product of the token matrices with the projection matrices, index by index:
    entry `(n, p, j)` is the sum over the channel `k` of `xt[n, p, k] * rm[n, k, j]`. -/
def proj (xt : (⟨3, ![4, 50176, 384]⟩ : Shape).Idx → EReal) (rm : (⟨3, ![4, 384, 128]⟩ : Shape).Idx → EReal) :
    (⟨3, ![4, 50176, 128]⟩ : Shape).Idx → EReal :=
  fun i => ∑ k : Fin 384, xt (ix3 (i 0) (i 1) k) * rm (ix3 (i 0) k (i 2))

theorem proj_apply (xt : (⟨3, ![4, 50176, 384]⟩ : Shape).Idx → EReal) (rm : (⟨3, ![4, 384, 128]⟩ : Shape).Idx → EReal)
    (n : Fin 4) (p : Fin 50176) (j : Fin 128) :
    proj xt rm (ix3 n p j) = ∑ k : Fin 384, xt (ix3 n p k) * rm (ix3 n k j) := rfl

end Cert.Projection

end
-- ==== Proof.RefProjection.lean ====
/-
  The reference computes the projection.

  After the reshape and the transpose the reference holds the token matrices `xt[n, p, k]`; its last
  operation is a batched dot over the channel axis, batch axis `n`. Read at the output index
  `(n, p, j)` that dot is the sum over the channel `k` of `xt[n, p, k] * rm[n, k, j]`: the left
  operand is read at `(n, p, k)` and the right one at `(n, k, j)`, which are the indices of `proj`.
-/
import proofs.«108281_g6262062317891_cont_9to1_m_719_17_alg».proof.Proof.Gen.ReferenceIdeal.Read
import proofs.«108281_g6262062317891_cont_9to1_m_719_17_alg».proof.Proof.Projection

noncomputable section

open scoped BigOperators

namespace Cert.ReferenceIdeal.RefProjection

open Cert.ReferenceIdeal Cert.ReferenceIdeal.Gen Cert.ReferenceIdeal.Read
open Idealize.ShloMosaic Idealize.ShloMosaic.ValueIdx Cert.Projection

/-- The dot's left operand index at output `(n, p, j)` and channel `k` is `(n, p, k)`. -/
theorem lidx_eq (i : S4x50176x128.Idx) (k : Fin 384) : lidx_main_v2 i k = ix3 (i 0) (i 1) k :=
  funext fun a => Fin.ext (by match a with | ⟨0, _⟩ => rfl | ⟨1, _⟩ => rfl | ⟨2, _⟩ => rfl)

/-- The dot's right operand index at output `(n, p, j)` and channel `k` is `(n, k, j)`. -/
theorem ridx_eq (i : S4x50176x128.Idx) (k : Fin 384) : ridx_main_v2 i k = ix3 (i 0) k (i 2) :=
  funext fun a => Fin.ext (by match a with | ⟨0, _⟩ => rfl | ⟨1, _⟩ => rfl | ⟨2, _⟩ => rfl)

/-- The reference's result is the projection of its token matrices by the projection matrices. -/
theorem result_eq (x0 : (⟨S4x384x224x224, .f32⟩ : BufTy).Contents (Elt Ideal)) (x1 : (⟨S4x384x128, .f32⟩ : BufTy).Contents (Elt Ideal)) :
    val_main_v2 (F := Ideal) x0 x1 = proj (val_main_v1 (F := Ideal) x0) x1 := by
  funext i
  rw [val_main_v2_apply]
  simp only [lidx_eq, ridx_eq]
  rfl

end Cert.ReferenceIdeal.RefProjection

end
-- ==== Proof.BlockProduct.lean ====
/-
  What the kernel body stores, at an index.

  At one grid point the body loads a slab of tokens `x0[0, r, k]` (7168 pixels by 384 channels)
  and the batch element's projection matrix `x1[0, k, j]`, drops the unit axis of both, multiplies
  them into a zero accumulator, and puts the unit axis back. So the stored block at `(0, r, j)` is
  `0 + ∑ k, x0[0, r, k] * x1[0, k, j]`, and on the extended reals `0 + s = s` for every `s`.
-/
import proofs.«108281_g6262062317891_cont_9to1_m_719_17_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockProduct

open Cert.KernelIdeal Cert.KernelIdeal.Gen
open Idealize.ShloMosaic Idealize.ShloMosaic.ValueIdx

/-- The left factor of the block product at row `r` and contraction index `q` is the slab at `(0, r, q)`. -/
theorem lhs_at (j : S7168x128.Idx) (q : dot_S7168x384_S384x128_S7168x128_1_0_0_1_n_n.contr.Idx) (k : Fin 384)
    (hq : (q ⟨0, by decide⟩).val = k.val) :
    (Fin.cons ⟨0, Nat.one_pos⟩ (dot_S7168x384_S384x128_S7168x128_1_0_0_1_n_n.lhsIdx j q) : S1x7168x384.Idx)
      = ix3 (0 : Fin 1) (j 0) k := by
  funext a; apply Fin.ext
  match a with
  | ⟨0, _⟩ => rfl
  | ⟨1, _⟩ =>
    show (dot_S7168x384_S384x128_S7168x128_1_0_0_1_n_n.lhsIdx j q 0).val = (j 0).val
    unfold DotDims.lhsIdx
    rw [dif_neg (show ¬(0 : Fin S7168x384.rank) ∈ dot_S7168x384_S384x128_S7168x128_1_0_0_1_n_n.lhsBatch by decide),
      dif_pos (show (0 : Fin S7168x384.rank) ∈ dot_S7168x384_S384x128_S7168x128_1_0_0_1_n_n.lhsNonContracting by decide)]
    rfl
  | ⟨2, _⟩ =>
    show (dot_S7168x384_S384x128_S7168x128_1_0_0_1_n_n.lhsIdx j q 1).val = k.val
    exact (dot_S7168x384_S384x128_S7168x128_1_0_0_1_n_n.lhsIdx_val_of_single rfl j q).trans hq

/-- The right factor at column `j` and contraction index `q` is the projection matrix at `(0, q, j)`. -/
theorem rhs_at (j : S7168x128.Idx) (q : dot_S7168x384_S384x128_S7168x128_1_0_0_1_n_n.contr.Idx) (k : Fin 384)
    (hq : (q ⟨0, by decide⟩).val = k.val) :
    (Fin.cons ⟨0, Nat.one_pos⟩ (dot_S7168x384_S384x128_S7168x128_1_0_0_1_n_n.rhsIdx j q) : S1x384x128.Idx)
      = ix3 (0 : Fin 1) k (j 1) := by
  funext a; apply Fin.ext
  match a with
  | ⟨0, _⟩ => rfl
  | ⟨1, _⟩ =>
    show (dot_S7168x384_S384x128_S7168x128_1_0_0_1_n_n.rhsIdx j q 0).val = k.val
    exact (dot_S7168x384_S384x128_S7168x128_1_0_0_1_n_n.rhsIdx_val_of_single rfl j q).trans hq
  | ⟨2, _⟩ =>
    show (dot_S7168x384_S384x128_S7168x128_1_0_0_1_n_n.rhsIdx j q 1).val = (j 1).val
    unfold DotDims.rhsIdx
    rw [dif_neg (show ¬(1 : Fin S384x128.rank) ∈ dot_S7168x384_S384x128_S7168x128_1_0_0_1_n_n.rhsBatch by decide),
      dif_pos (show (1 : Fin S384x128.rank) ∈ dot_S7168x384_S384x128_S7168x128_1_0_0_1_n_n.rhsNonContracting by decide)]
    rfl

/-- THE STORED BLOCK at `(0, r, j)`: the sum over the channel `k` of the token slab at `(0, r, k)` times the
    projection matrix at `(0, k, j)`. -/
theorem pay_apply (x0 : Vec Ideal S1x7168x384 .f32) (x1 : Vec Ideal S1x384x128 .f32) (r : Fin 7168) (j : Fin 128) :
    k0_pay1 (F := Ideal) x0 x1 (ix3 (0 : Fin 1) r j)
      = ∑ k : Fin 384, x0 (ix3 (0 : Fin 1) r k) * x1 (ix3 (0 : Fin 1) k j) := by
  unfold k0_pay1
  refine (shapeCast_addUnit_apply ![7168, 128] _ shapeCasts_S7168x128_S1x7168x128 (ix3 (0 : Fin 1) r j)).trans ?_
  refine (Ideal.matmul_constant_zero_apply dot_S7168x384_S384x128_S7168x128_1_0_0_1_n_n none _ _ _).trans ?_
  rw [← Equiv.sum_comp (contrEquiv1 dot_S7168x384_S384x128_S7168x128_1_0_0_1_n_n 384 rfl rfl).symm]
  refine Finset.sum_congr rfl fun k _ => ?_
  have hk := contrEquiv1_symm_val dot_S7168x384_S384x128_S7168x128_1_0_0_1_n_n 384 rfl rfl k
  refine congrArg₂ (· * ·) ?_ ?_
  · refine (shapeCast_dropUnit_apply ![7168, 384] x0 shapeCasts_S1x7168x384_S7168x384 _).trans ?_
    exact congrArg x0 (lhs_at _ _ k hk)
  · refine (shapeCast_dropUnit_apply ![384, 128] x1 shapeCasts_S1x384x128_S384x128 _).trans ?_
    exact congrArg x1 (rhs_at _ _ k hk)

end Cert.KernelIdeal.BlockProduct

end
-- ==== Proof.Tiling.lean ====
/-
  From the blocks to the whole array.

  The grid has 4 × 7 points. Point `(b, s)` reads the token slab of batch element `b`, pixels
  `7168 s … 7168 s + 7167`, all 384 channels; reads the whole projection matrix of batch element `b`;
  and writes pixels `7168 s … 7168 s + 7167` of batch element `b` of the result, all 128 columns. Since
  `7 * 7168 = 50176`, the 28 written blocks tile the result: pixel `p` of batch `n` lies in the block of
  point `(n, p / 7168)`. An entry of the projection depends only on its own pixel's row of tokens and
  on its own batch element's projection matrix, both of which the point has loaded, so every point
  writes the restriction of the one whole-array function `proj` to its block; the result array is `proj`.

  The token matrices are the first argument reshaped to [4, 384, 50176] and transposed to
  [4, 50176, 384] by the two host operations before the region.
-/
import proofs.«108281_g6262062317891_cont_9to1_m_719_17_alg».proof.Proof.Gen.KernelIdeal.Value
import proofs.«108281_g6262062317891_cont_9to1_m_719_17_alg».proof.Proof.Projection
import proofs.«108281_g6262062317891_cont_9to1_m_719_17_alg».proof.Proof.BlockProduct
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Tiling

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Projection Cert.KernelIdeal.BlockProduct

variable (m : (ℓ : Loc nD τ sig) → Buf (Elt Ideal) ℓ) (ρ : Dev nD → PrngReg)

theorem hz : (![0, 0, 0] : Fin 3 → Nat) = fun _ => 0 := funext fun a => by fin_cases a <;> rfl

/-- The block indices over the grid: the token window follows the output window on the batch and
    pixel axes and sits at block 0 of the channel axis; the matrix window follows it on the batch
    axis only; the output's block index is `(b, s, 0)` with `b ≤ 3`, `s ≤ 6`. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 3 ∧ win0_2.index t (1 : Fin 3) ≤ 6 :=
  (by decide +kernel : ∀ t : Fin grid0.N, _)

/-- Every pair (batch element, pixel tile) is some grid point's output block. -/
theorem idx_onto : ∀ (q0 : Fin 4) (q1 : Fin 7), ∃ t : Fin cfg0.N, win0_2.index t = ![q0.val, q1.val, 0] :=
  (by decide +kernel : ∀ (q0 : Fin 4) (q1 : Fin 7), ∃ t : Fin grid0.N, win0_2.index t = ![q0.val, q1.val, 0])

/-- One stored entry against one entry of the projection: if row `r` of the loaded slab is the token
    row of the entry `i`, and column `j` of the loaded matrix is the projection column of `i`, then
    the stored block at `(0, r, j)` is the projection at `i`. -/
theorem block_entry (x0 : Vec Ideal S1x7168x384 .f32) (x1 : Vec Ideal S1x384x128 .f32)
    (xt : S4x50176x384.Idx → EReal) (rm : S4x384x128.Idx → EReal) (r : Fin 7168) (j : Fin 128) (i : S4x50176x128.Idx)
    (h0 : ∀ k : Fin 384, x0 (ix3 (0 : Fin 1) r k) = xt (ix3 (i 0) (i 1) k))
    (h1 : ∀ k : Fin 384, x1 (ix3 (0 : Fin 1) k j) = rm (ix3 (i 0) k (i 2))) :
    k0_pay1 (F := Ideal) x0 x1 (ix3 (0 : Fin 1) r j) = proj xt rm i := by
  rw [pay_apply]
  exact Finset.sum_congr rfl fun k _ => by rw [h0 k, h1 k]

/-- WHAT POINT `t` WRITES BACK is block `t` of the projection of the token matrices and the projection
    matrices as the region finds them. -/
theorem flushed_eq (c : Dev nD) (t : Fin cfg0.N) :
    (dats m 0 c).flushed 2 t
      = ((cfg0.win 2).blk t).view.read (Elt Ideal) (proj (V m c main_v1) (V m c main_arg1)) := by
  rw [flushed2]
  unfold out0_2
  rw [View.canon_unit_zero hz]
  simp only [View.ld_unit_zero (S := S1x7168x384) hz, View.ld_unit_zero (S := S1x384x128) hz]
  obtain ⟨e0, e1, e2, e3, e4, e5, e6, e7, e8⟩ := idx_facts t
  funext y
  have hy0 : (y 0).val < 1 := (y 0).isLt
  obtain ⟨r, j, rfl⟩ : ∃ (r : Fin 7168) (j : Fin 128), y = ix3 (0 : Fin 1) r j :=
    ⟨y 1, y 2, funext fun a => by
      match a with
      | ⟨0, _⟩ => exact Fin.ext (by show (y 0).val = 0; omega)
      | ⟨1, _⟩ => rfl
      | ⟨2, _⟩ => rfl⟩
  show k0_pay1 (F := Ideal) (iblk m c 0 t) (iblk m c 1 t) (ix3 (0 : Fin 1) r j)
    = proj (V m c main_v1) (V m c main_arg1) (((cfg0.win 2).blk t).view.emb (ix3 (0 : Fin 1) r j))
  refine block_entry _ _ _ _ r j _ (fun k => ?_) (fun k => ?_)
  · show V m c main_v1 (((cfg0.win 0).blk t).view.emb (ix3 (0 : Fin 1) r k)) = V m c main_v1 _
    refine congrArg (V m c main_v1) ?_
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 7168 + 1 * r.val = win0_2.index t (1 : Fin 3) * 7168 + 1 * r.val; omega
    | ⟨2, _⟩ => show win0_0.index t (2 : Fin 3) * 384 + 1 * k.val = k.val; omega
  · show V m c main_arg1 (((cfg0.win 1).blk t).view.emb (ix3 (0 : Fin 1) k j)) = V m c main_arg1 _
    refine congrArg (V m c main_arg1) ?_
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 384 + 1 * k.val = k.val; omega
    | ⟨2, _⟩ => show win0_1.index t (2 : Fin 3) * 128 + 1 * j.val = win0_2.index t (2 : Fin 3) * 128 + 1 * j.val; omega

/-- An index of the result is in point `t`'s block iff each coordinate is in the block's range on its axis. -/
theorem mem_blk (t : Fin cfg0.N) (i : S4x50176x128.Idx) :
    i ∈ ((cfg0.win 2).blk t).view.set ↔ ∀ a : Fin 3, win0_2.index t a * S1x7168x128.size a ≤ (i a).val
      ∧ (i a).val < win0_2.index t a * S1x7168x128.size a + S1x7168x128.size a := by
  show i ∈ ((View.whole main_v2).slice (win0_2.rect t)).set ↔ _
  rw [View.set_slice_whole, Rect.mem_set_unit]
  exact Iff.rfl

/-- THE BLOCKS TILE THE RESULT: entry `(n, p, j)` lies in the block of the point whose output block index
    is `(n, p / 7168, 0)`. -/
theorem cover (i : S4x50176x128.Idx) :
    ∃ t : Fin cfg0.N, (cfg0.win 2).flush t = true ∧ i ∈ ((cfg0.win 2).blk t).view.set := by
  have hi0 : (i 0).val < 4 := (i 0).isLt
  have hi1 : (i 1).val < 50176 := (i 1).isLt
  have hi2 : (i 2).val < 128 := (i 2).isLt
  obtain ⟨t, ht⟩ := idx_onto ⟨(i 0).val, hi0⟩ ⟨(i 1).val / 7168, by omega⟩
  have q0 : win0_2.index t (0 : Fin 3) = (i 0).val := congrFun ht 0
  have q1 : win0_2.index t (1 : Fin 3) = (i 1).val / 7168 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 7168 ≤ (i 1).val ∧ (i 1).val < win0_2.index t (1 : Fin 3) * 7168 + 7168; omega
  | ⟨2, _⟩ => show win0_2.index t (2 : Fin 3) * 128 ≤ (i 2).val ∧ (i 2).val < win0_2.index t (2 : Fin 3) * 128 + 128; omega

/-- The token matrices the region finds: the first argument reshaped and transposed by the host. -/
theorem tokens_eq (c : Dev nD) :
    (V m c main_v1 : S4x50176x384.Idx → EReal)
      = transpose S4x50176x384 [0, 2, 1]
          (shapeCast _ (m ((c : Thread nD τ).loc main_arg0)) shapeCasts_S4x384x224x224_S4x384x50176)
          transposes_S4x384x50176_S4x50176x384_0_2_1 := by
  dsimp only [Gen.V, Gen.hostOps0]
  after_results
  rfl

/-- THE RESULT ARRAY after the run is the projection of the host's token matrices by the second argument. -/
theorem final (c : Dev nD) :
    (dats m 0 c).arrAt 2 cfg0.N
      = proj (transpose S4x50176x384 [0, 2, 1]
          (shapeCast _ (m ((c : Thread nD τ).loc main_arg0)) shapeCasts_S4x384x224x224_S4x384x50176)
          transposes_S4x384x50176_S4x50176x384_0_2_1) (m ((c : Thread nD τ).loc main_arg1)) := by
  rw [← tokens_eq m c, ← V_main_arg1 m c]
  exact (dats m 0 c).arrAt_eq_of_cover 2 (proj (V m c main_v1) (V m c main_arg1)) (fun t _ => flushed_eq m c t) cover

/-- The kernel's run, read: the result at the projection, the arguments unchanged. -/
theorem run : θ_run defs (onTc (τ := τ) (main (F := Ideal))) ⟨m, fun _ => 0, ρ⟩ fun r => ∀ c : Dev nD,
      r.2.mem ((c : Thread nD τ).loc main_v2)
        = proj (transpose S4x50176x384 [0, 2, 1]
            (shapeCast _ (m ((c : Thread nD τ).loc main_arg0)) shapeCasts_S4x384x224x224_S4x384x50176)
            transposes_S4x384x50176_S4x50176x384_0_2_1) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Tiling

end
-- ==== Proof.lean ====
/-
  The kernel and its reference compute the same hash codes on the extended reals.

  Both programs first reshape the input [4, 384, 224, 224] to [4, 384, 50176] and transpose it to the
  token matrices `xt[n, p, k]` (pixel `p`, channel `k`). The reference then takes ONE batched matrix
  product with the projection matrices `rm[n, k, j]`; the kernel walks a 4 × 7 grid and at each point
  multiplies a slab of 7168 pixels of one batch element by that element's projection matrix into a
  zero accumulator. Either way the entry `(n, p, j)` of the result is

      ∑ k, xt[n, p, k] * rm[n, k, j]        (k over the 384 channels),

  the same finite sum with the same summands: on the kernel's side because the 28 blocks tile the
  result and each entry only needs its own pixel's token row and its own batch element's matrix
  (Proof/BlockProduct.lean, Proof/Tiling.lean; `0 + s = s` for the zero accumulator), on the
  reference's side by reading its dot at an index (Proof/RefProjection.lean). No law that fails at
  the infinities is used, so the finiteness of the inputs is never opened.

  The three programs run, fault-free, with their arguments unchanged: for the two kernels by their
  frame runs, for the reference by its run with the result dropped. The idealization rewrote no
  operation, so there is nothing to preserve.
-/
import proofs.«108281_g6262062317891_cont_9to1_m_719_17_alg».proof.Defs
import proofs.«108281_g6262062317891_cont_9to1_m_719_17_alg».proof.Proof.Gen.Kernel
import proofs.«108281_g6262062317891_cont_9to1_m_719_17_alg».proof.Proof.Gen.Kernel.Skeleton
import proofs.«108281_g6262062317891_cont_9to1_m_719_17_alg».proof.Proof.Gen.Kernel.Launch
import proofs.«108281_g6262062317891_cont_9to1_m_719_17_alg».proof.Proof.Gen.Kernel.Points
import proofs.«108281_g6262062317891_cont_9to1_m_719_17_alg».proof.Proof.Gen.Kernel.Frame
import proofs.«108281_g6262062317891_cont_9to1_m_719_17_alg».proof.Proof.Gen.KernelIdeal
import proofs.«108281_g6262062317891_cont_9to1_m_719_17_alg».proof.Proof.Gen.KernelIdeal.Skeleton
import proofs.«108281_g6262062317891_cont_9to1_m_719_17_alg».proof.Proof.Gen.KernelIdeal.Launch
import proofs.«108281_g6262062317891_cont_9to1_m_719_17_alg».proof.Proof.Gen.KernelIdeal.Points
import proofs.«108281_g6262062317891_cont_9to1_m_719_17_alg».proof.Proof.Gen.KernelIdeal.Frame
import proofs.«108281_g6262062317891_cont_9to1_m_719_17_alg».proof.Proof.Gen.ReferenceIdeal
import proofs.«108281_g6262062317891_cont_9to1_m_719_17_alg».proof.Proof.Gen.Pre_finite_inputs
import proofs.«108281_g6262062317891_cont_9to1_m_719_17_alg».proof.Proof.Gen.KernelIdeal.Value
import proofs.«108281_g6262062317891_cont_9to1_m_719_17_alg».proof.Proof.Gen.ReferenceIdeal.Run
import proofs.«108281_g6262062317891_cont_9to1_m_719_17_alg».proof.Proof.Gen.ReferenceIdeal.Read
import proofs.«108281_g6262062317891_cont_9to1_m_719_17_alg».proof.Proof.Projection
import proofs.«108281_g6262062317891_cont_9to1_m_719_17_alg».proof.Proof.RefProjection
import proofs.«108281_g6262062317891_cont_9to1_m_719_17_alg».proof.Proof.BlockProduct
import proofs.«108281_g6262062317891_cont_9to1_m_719_17_alg».proof.Proof.Tiling
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the two arguments, both programs end with the projection of the
    token matrices by the projection matrices in their result array. -/
theorem algebraic : Cert.algebraic_KernelIdeal_ReferenceIdeal := by
  intro m ρ m' ρ' _ hagree
  refine ⟨_, Cert.KernelIdeal.Tiling.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefProjection.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
